-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v19)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v19) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v26) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S65536x512 : Shape := ⟨2, ![65536, 512]⟩
abbrev S512 : Shape := ⟨1, ![512]⟩
abbrev S1x512 : Shape := ⟨2, ![1, 512]⟩
abbrev S1 : Shape := ⟨1, ![1]⟩
abbrev S_ : Shape := ⟨0, ![]⟩

class Facts : Prop where
  bcast_S_S65536x512 : S_.BroadcastsInDim S65536x512 (![] : Fin 0 → Fin S65536x512.rank)
  reducesTo_S65536x512_S_d0_1 : S65536x512.ReducesTo [0, 1] S_
  h_S_ : 0 < S_.numel
  bcast_S_S512 : S_.BroadcastsInDim S512 (![] : Fin 0 → Fin S512.rank)
  reducesTo_S512_S_d0 : S512.ReducesTo [0] S_
  bcast_S_S1x512 : S_.BroadcastsInDim S1x512 (![] : Fin 0 → Fin S1x512.rank)
  reducesTo_S1x512_S_d0_1 : S1x512.ReducesTo [0, 1] S_
  bcast_S_S1 : S_.BroadcastsInDim S1 (![] : Fin 0 → Fin S1.rank)
  reducesTo_S1_S_d0 : S1.ReducesTo [0] S_

variable [Facts]

def fn_part2 {F : FTy → Type} [FloatOps F] (main_arg7 : FVec F S1 .f32) (main_v33 : IVec S_ 1) : IVec S_ 1 :=
  let main_v34 : FVec F S1 .f32 := Host.absf main_arg7
  let main_cst_12 : FVec F S_ .f32 := constant S_ .f32 0x7F800000#32
  let main_v35 : FVec F S1 .f32 := broadcastInDim S1 ![] bcast_S_S1 main_cst_12
  let main_v36 : IVec S1 1 := cmpf .olt main_v34 main_v35
  let main_c_13 : IVec S_ 1 := constantI S_ 1 1#1
  let main_v37 : IVec S_ 1 := (fun x v => Host.reduce IntOp.andi x v reducesTo_S1_S_d0 h_S_) main_v36 main_c_13
  let main_v38 : IVec S_ 1 := andi main_v33 main_v37
  main_v38

def fn_part1 {F : FTy → Type} [FloatOps F] (main_arg4 : FVec F S512 .f32) (main_arg5 : FVec F S512 .f32) (main_arg6 : FVec F S1x512 .f32) (main_arg7 : FVec F S1 .f32) (main_v13 : IVec S_ 1) (main_v16 : IVec S512 1) : IVec S_ 1 :=
  let main_c_5 : IVec S_ 1 := constantI S_ 1 1#1
  let main_v17 : IVec S_ 1 := (fun x v => Host.reduce IntOp.andi x v reducesTo_S512_S_d0 h_S_) main_v16 main_c_5
  let main_v18 : IVec S_ 1 := andi main_v13 main_v17
  let main_v19 : FVec F S512 .f32 := Host.absf main_arg4
  let main_cst_6 : FVec F S_ .f32 := constant S_ .f32 0x7F800000#32
  let main_v20 : FVec F S512 .f32 := broadcastInDim S512 ![] bcast_S_S512 main_cst_6
  let main_v21 : IVec S512 1 := cmpf .olt main_v19 main_v20
  let main_c_7 : IVec S_ 1 := constantI S_ 1 1#1
  let main_v22 : IVec S_ 1 := (fun x v => Host.reduce IntOp.andi x v reducesTo_S512_S_d0 h_S_) main_v21 main_c_7
  let main_v23 : IVec S_ 1 := andi main_v18 main_v22
  let main_v24 : FVec F S512 .f32 := Host.absf main_arg5
  let main_cst_8 : FVec F S_ .f32 := constant S_ .f32 0x7F800000#32
  let main_v25 : FVec F S512 .f32 := broadcastInDim S512 ![] bcast_S_S512 main_cst_8
  let main_v26 : IVec S512 1 := cmpf .olt main_v24 main_v25
  let main_c_9 : IVec S_ 1 := constantI S_ 1 1#1
  let main_v27 : IVec S_ 1 := (fun x v => Host.reduce IntOp.andi x v reducesTo_S512_S_d0 h_S_) main_v26 main_c_9
  let main_v28 : IVec S_ 1 := andi main_v23 main_v27
  let main_v29 : FVec F S1x512 .f32 := Host.absf main_arg6
  let main_cst_10 : FVec F S_ .f32 := constant S_ .f32 0x7F800000#32
  let main_v30 : FVec F S1x512 .f32 := broadcastInDim S1x512 ![] bcast_S_S1x512 main_cst_10
  let main_v31 : IVec S1x512 1 := cmpf .olt main_v29 main_v30
  let main_c_11 : IVec S_ 1 := constantI S_ 1 1#1
  let main_v32 : IVec S_ 1 := (fun x v => Host.reduce IntOp.andi x v reducesTo_S1x512_S_d0_1 h_S_) main_v31 main_c_11
  let main_v33 : IVec S_ 1 := andi main_v28 main_v32
  fn_part2 (F := F) main_arg7 main_v33

def fn {F : FTy → Type} [FloatOps F] (main_arg0 : FVec F S65536x512 .f32) (main_arg1 : FVec F S512 .f32) (main_arg2 : FVec F S512 .f32) (main_arg3 : FVec F S512 .f32) (main_arg4 : FVec F S512 .f32) (main_arg5 : FVec F S512 .f32) (main_arg6 : FVec F S1x512 .f32) (main_arg7 : FVec F S1 .f32) : IVec S_ 1 :=
  let main_v0 : FVec F S65536x512 .f32 := Host.absf main_arg0
  let main_cst : FVec F S_ .f32 := constant S_ .f32 0x7F800000#32
  let main_v1 : FVec F S65536x512 .f32 := broadcastInDim S65536x512 ![] bcast_S_S65536x512 main_cst
  let main_v2 : IVec S65536x512 1 := cmpf .olt main_v0 main_v1
  let main_c : IVec S_ 1 := constantI S_ 1 1#1
  let main_v3 : IVec S_ 1 := (fun x v => Host.reduce IntOp.andi x v reducesTo_S65536x512_S_d0_1 h_S_) main_v2 main_c
  let main_v4 : FVec F S512 .f32 := Host.absf main_arg1
  let main_cst_0 : FVec F S_ .f32 := constant S_ .f32 0x7F800000#32
  let main_v5 : FVec F S512 .f32 := broadcastInDim S512 ![] bcast_S_S512 main_cst_0
  let main_v6 : IVec S512 1 := cmpf .olt main_v4 main_v5
  let main_c_1 : IVec S_ 1 := constantI S_ 1 1#1
  let main_v7 : IVec S_ 1 := (fun x v => Host.reduce IntOp.andi x v reducesTo_S512_S_d0 h_S_) main_v6 main_c_1
  let main_v8 : IVec S_ 1 := andi main_v3 main_v7
  let main_v9 : FVec F S512 .f32 := Host.absf main_arg2
  let main_cst_2 : FVec F S_ .f32 := constant S_ .f32 0x7F800000#32
  let main_v10 : FVec F S512 .f32 := broadcastInDim S512 ![] bcast_S_S512 main_cst_2
  let main_v11 : IVec S512 1 := cmpf .olt main_v9 main_v10
  let main_c_3 : IVec S_ 1 := constantI S_ 1 1#1
  let main_v12 : IVec S_ 1 := (fun x v => Host.reduce IntOp.andi x v reducesTo_S512_S_d0 h_S_) main_v11 main_c_3
  let main_v13 : IVec S_ 1 := andi main_v8 main_v12
  let main_v14 : FVec F S512 .f32 := Host.absf main_arg3
  let main_cst_4 : FVec F S_ .f32 := constant S_ .f32 0x7F800000#32
  let main_v15 : FVec F S512 .f32 := broadcastInDim S512 ![] bcast_S_S512 main_cst_4
  let main_v16 : IVec S512 1 := cmpf .olt main_v14 main_v15
  fn_part1 (F := F) main_arg4 main_arg5 main_arg6 main_arg7 main_v13 main_v16
-- ==== Kernel.lean ====
abbrev S65536x512 : Shape := ⟨2, ![65536, 512]⟩
abbrev S512 : Shape := ⟨1, ![512]⟩
abbrev S1x512 : Shape := ⟨2, ![1, 512]⟩
abbrev S1 : Shape := ⟨1, ![1]⟩
abbrev S_ : Shape := ⟨0, ![]⟩
abbrev S1x1 : Shape := ⟨2, ![1, 1]⟩
abbrev S65536x1 : Shape := ⟨2, ![65536, 1]⟩
abbrev S4096x512 : Shape := ⟨2, ![4096, 512]⟩
abbrev S4096x1 : Shape := ⟨2, ![4096, 1]⟩
abbrev S4096 : Shape := ⟨1, ![4096]⟩
abbrev S65536 : Shape := ⟨1, ![65536]⟩

abbrev nBuf : Space → Nat
  | .hbm => 30
  | .vmem => 6
  | .smem => 0
  | _ => 0

abbrev bufTy : (tb : Table) → Fin (tcTables nBuf tb) → BufTy
  | .hbm, ⟨0, _⟩ => ⟨S65536x512, .f32⟩
  | .hbm, ⟨1, _⟩ => ⟨S512, .f32⟩
  | .hbm, ⟨2, _⟩ => ⟨S512, .f32⟩
  | .hbm, ⟨3, _⟩ => ⟨S512, .f32⟩
  | .hbm, ⟨4, _⟩ => ⟨S512, .f32⟩
  | .hbm, ⟨5, _⟩ => ⟨S512, .f32⟩
  | .hbm, ⟨6, _⟩ => ⟨S1x512, .f32⟩
  | .hbm, ⟨7, _⟩ => ⟨S1, .f32⟩
  | .hbm, ⟨8, _⟩ => ⟨S512, .f32⟩
  | .hbm, ⟨9, _⟩ => ⟨S512, .f32⟩
  | .hbm, ⟨10, _⟩ => ⟨S512, .f32⟩
  | .hbm, ⟨11, _⟩ => ⟨S_, .f32⟩
  | .hbm, ⟨12, _⟩ => ⟨S512, .f32⟩
  | .hbm, ⟨13, _⟩ => ⟨S512, .f32⟩
  | .hbm, ⟨14, _⟩ => ⟨S512, .f32⟩
  | .hbm, ⟨15, _⟩ => ⟨S512, .f32⟩
  | .hbm, ⟨16, _⟩ => ⟨S512, .f32⟩
  | .hbm, ⟨17, _⟩ => ⟨S512, .f32⟩
  | .hbm, ⟨18, _⟩ => ⟨S512, .f32⟩
  | .hbm, ⟨19, _⟩ => ⟨S512, .f32⟩
  | .hbm, ⟨20, _⟩ => ⟨S_, .f32⟩
  | .hbm, ⟨21, _⟩ => ⟨S512, .f32⟩
  | .hbm, ⟨22, _⟩ => ⟨S512, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S1x512, .f32⟩
  | .hbm, ⟨27, _⟩ => ⟨S1x1, .f32⟩
  | .hbm, ⟨28, _⟩ => ⟨S65536x1, .f32⟩
  | .hbm, ⟨29, _⟩ => ⟨S65536, .f32⟩
  | .local _ .vmem, ⟨0, _⟩ => ⟨S4096x512, .f32⟩
  | .local _ .vmem, ⟨1, _⟩ => ⟨S4096x512, .f32⟩
  | .local _ .vmem, ⟨2, _⟩ => ⟨S1x512, .f32⟩
  | .local _ .vmem, ⟨3, _⟩ => ⟨S1x1, .f32⟩
  | .local _ .vmem, ⟨4, _⟩ => ⟨S4096x1, .f32⟩
  | .local _ .vmem, ⟨5, _⟩ => ⟨S4096x1, .f32⟩
  | _, _ => ⟨S65536x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_cst : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_0 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S4096x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  shapeCasts_S1x512_S512 : S1x512.ShapeCasts S512
  bcast_S_S512 : S_.BroadcastsInDim S512 (![] : Fin 0 → Fin S512.rank)
  shapeCasts_S1_S_ : S1.ShapeCasts S_
  reducesTo_S512_S_d0 : S512.ReducesTo [0] S_
  h_S_ : 0 < S_.numel
  shapeCasts_S512_S1x512 : S512.ShapeCasts S1x512
  shapeCasts_S_S1x1 : S_.ShapeCasts S1x1
  inb_S4096x512_S4096x512_0_0 : ∀ a, (![0, 0] : Fin 2 → Nat) a + S4096x512.size a ≤ S4096x512.size a
  h_S4096x512 : 0 < S4096x512.numel
  inb_S1x512_S1x512_0_0 : ∀ a, (![0, 0] : Fin 2 → Nat) a + S1x512.size a ≤ S1x512.size a
  h_S1x512 : 0 < S1x512.numel
  shapeCasts_S1x512_S1x512 : S1x512.ShapeCasts S1x512
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x512_S4096x512 : S1x512.Broadcasts S4096x512
  reduces_S4096x512_S4096 : S4096x512.Reduces [1] S4096
  shapeCasts_S4096_S4096x1 : S4096.ShapeCasts S4096x1
  broadcasts_S1x1_S4096x1 : S1x1.Broadcasts S4096x1
  inb_S4096x1_S4096x1_0_0 : ∀ a, (![0, 0] : Fin 2 → Nat) a + S4096x1.size a ≤ S4096x1.size a
  h_S4096x1 : 0 < S4096x1.numel
  shapeCasts_S65536x1_S65536 : S65536x1.ShapeCasts S65536
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x512.size a ≤ S65536x512.size a
  hwx0_0 : ∀ i : grid0.Coords, EltTy.bits .f32 = 32 ∨ (Rect.block (s := S65536x512) S4096x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x512.size a ≤ S1x512.size a
  hwx0_1 : ∀ i : grid0.Coords, EltTy.bits .f32 = 32 ∨ (Rect.block (s := S1x512) S1x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1.size a ≤ S1x1.size a
  hwx0_2 : ∀ i : grid0.Coords, EltTy.bits .f32 = 32 ∨ (Rect.block (s := S1x1) S1x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S4096x1.size a ≤ S65536x1.size a
  hwx0_3 : ∀ i : grid0.Coords, EltTy.bits .f32 = 32 ∨ (Rect.block (s := S65536x1) S4096x1.size (cc0_transform_3 i) (hinb0_3 i)).WholeWords (EltTy.packing .f32)

variable [Facts₀]

abbrev win0_0 : Pipeline.Window sig grid0 :=
  Pipeline.Window.ofSpec (Memref.whole main_arg0) S4096x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v16) S1x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v17) S1x1.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v18) S4096x1.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S65536x512 : Shape := ⟨2, ![65536, 512]⟩
abbrev S512 : Shape := ⟨1, ![512]⟩
abbrev S1x512 : Shape := ⟨2, ![1, 512]⟩
abbrev S1 : Shape := ⟨1, ![1]⟩
abbrev S_ : Shape := ⟨0, ![]⟩
abbrev S512x1 : Shape := ⟨2, ![512, 1]⟩
abbrev S65536x1 : Shape := ⟨2, ![65536, 1]⟩
abbrev S1x1 : Shape := ⟨2, ![1, 1]⟩
abbrev S65536 : Shape := ⟨1, ![65536]⟩

abbrev nBuf : Space → Nat
  | .hbm => 37
  | .vmem => 0
  | .smem => 0
  | _ => 0

abbrev bufTy : (tb : Table) → Fin (tcTables nBuf tb) → BufTy
  | .hbm, ⟨0, _⟩ => ⟨S65536x512, .f32⟩
  | .hbm, ⟨1, _⟩ => ⟨S512, .f32⟩
  | .hbm, ⟨2, _⟩ => ⟨S512, .f32⟩
  | .hbm, ⟨3, _⟩ => ⟨S512, .f32⟩
  | .hbm, ⟨4, _⟩ => ⟨S512, .f32⟩
  | .hbm, ⟨5, _⟩ => ⟨S512, .f32⟩
  | .hbm, ⟨6, _⟩ => ⟨S1x512, .f32⟩
  | .hbm, ⟨7, _⟩ => ⟨S1, .f32⟩
  | .hbm, ⟨8, _⟩ => ⟨S512, .f32⟩
  | .hbm, ⟨9, _⟩ => ⟨S512, .f32⟩
  | .hbm, ⟨10, _⟩ => ⟨S_, .f32⟩
  | .hbm, ⟨11, _⟩ => ⟨S65536x512, .f32⟩
  | .hbm, ⟨12, _⟩ => ⟨S65536x512, .f32⟩
  | .hbm, ⟨13, _⟩ => ⟨S512, .f32⟩
  | .hbm, ⟨14, _⟩ => ⟨S512, .f32⟩
  | .hbm, ⟨15, _⟩ => ⟨S1x512, .f32⟩
  | .hbm, ⟨16, _⟩ => ⟨S65536x512, .f32⟩
  | .hbm, ⟨17, _⟩ => ⟨S65536x512, .f32⟩
  | .hbm, ⟨18, _⟩ => ⟨S512, .f32⟩
  | .hbm, ⟨19, _⟩ => ⟨S1x512, .f32⟩
  | .hbm, ⟨20, _⟩ => ⟨S65536x512, .f32⟩
  | .hbm, ⟨21, _⟩ => ⟨S65536x512, .f32⟩
  | .hbm, ⟨22, _⟩ => ⟨S_, .f32⟩
  | .hbm, ⟨23, _⟩ => ⟨S512, .f32⟩
  | .hbm, ⟨24, _⟩ => ⟨S512, .f32⟩
  | .hbm, ⟨25, _⟩ => ⟨S1x512, .f32⟩
  | .hbm, ⟨26, _⟩ => ⟨S65536x512, .f32⟩
  | .hbm, ⟨27, _⟩ => ⟨S65536x512, .f32⟩
  | .hbm, ⟨28, _⟩ => ⟨S1x512, .f32⟩
  | .hbm, ⟨29, _⟩ => ⟨S65536x512, .f32⟩
  | .hbm, ⟨30, _⟩ => ⟨S65536x512, .f32⟩
  | .hbm, ⟨31, _⟩ => ⟨S512x1, .f32⟩
  | .hbm, ⟨32, _⟩ => ⟨S65536x1, .f32⟩
  | .hbm, ⟨33, _⟩ => ⟨S1x1, .f32⟩
  | .hbm, ⟨34, _⟩ => ⟨S65536x1, .f32⟩
  | .hbm, ⟨35, _⟩ => ⟨S65536x1, .f32⟩
  | .hbm, ⟨36, _⟩ => ⟨S65536, .f32⟩
  | _, _ => ⟨S65536x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_cst : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_0 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩

abbrev nD : Nat := 1
abbrev τ : Topo := Topo.v7x

variable {F : FTy → Type} [FloatOps F]

class Facts₀ : Prop where
  bcast_S_S65536x512 : S_.BroadcastsInDim S65536x512 (![] : Fin 0 → Fin S65536x512.rank)
  bcast_S512_S1x512_1 : S512.BroadcastsInDim S1x512 (![1] : Fin 1 → Fin S1x512.rank)
  bcast_S1x512_S65536x512_0_1 : S1x512.BroadcastsInDim S65536x512 (![0, 1] : Fin 2 → Fin S65536x512.rank)
  bcast_S_S512 : S_.BroadcastsInDim S512 (![] : Fin 0 → Fin S512.rank)
  transposes_S1x512_S512x1_1_0 : S1x512.Transposes [1, 0] S512x1
  bcast_S1_S1x1_1 : S1.BroadcastsInDim S1x1 (![1] : Fin 1 → Fin S1x1.rank)
  bcast_S1x1_S65536x1_0_1 : S1x1.BroadcastsInDim S65536x1 (![0, 1] : Fin 2 → Fin S65536x1.rank)
  shapeCasts_S65536x1_S65536 : S65536x1.ShapeCasts S65536
  dot_S65536x512_S512x1_S65536x1_1_0_0_1_n_n_wf : DotDims.WF S65536x512 S512x1 S65536x1 [1] [0] [0] [1] [] []

variable [Facts₀]

def dot_S65536x512_S512x1_S65536x1_1_0_0_1_n_n : DotDims S65536x512 S512x1 S65536x1 where
  lhsContracting := [1]
  rhsContracting := [0]
  lhsNonContracting := [0]
  rhsNonContracting := [1]
  lhsBatch := []
  rhsBatch := []
  wf := dot_S65536x512_S512x1_S65536x1_1_0_0_1_n_n_wf

class Facts : Prop extends Facts₀ where

variable [Facts]
-- ==== Proof.LibReal.lean ====
/-
  Extended reals that are real numbers. On the extended reals the sum and the product are commutative and associative,
  but the product distributes over the sum only away from the infinities. The predicate `IsR a` says `a` is (the image of)
  a real number; it is closed under every operation met here — sums, finite sums, products, differences, the guarded and
  the plain division by a nonzero real, the logistic function and the hyperbolic tangent — and under it the distributive
  law holds.
-/
import Idealize.ShloMosaic.PureOps.Ideal

noncomputable section

namespace Cert.LibReal

open Idealize.ShloMosaic

/-- `a` is a real number. -/
def IsR (a : EReal) : Prop := ∃ r : ℝ, a = (r : EReal)

theorem IsR.coe (r : ℝ) : IsR (r : EReal) := ⟨r, rfl⟩
theorem IsR.zero : IsR 0 := ⟨0, rfl⟩
theorem IsR.one : IsR 1 := ⟨1, rfl⟩

theorem IsR.add {a b : EReal} (ha : IsR a) (hb : IsR b) : IsR (a + b) := by
  obtain ⟨r, rfl⟩ := ha; obtain ⟨s, rfl⟩ := hb; exact ⟨r + s, (EReal.coe_add r s).symm⟩

theorem IsR.mul {a b : EReal} (ha : IsR a) (hb : IsR b) : IsR (a * b) := by
  obtain ⟨r, rfl⟩ := ha; obtain ⟨s, rfl⟩ := hb; exact ⟨r * s, (EReal.coe_mul r s).symm⟩

theorem IsR.sub {a b : EReal} (ha : IsR a) (hb : IsR b) : IsR (a - b) := by
  obtain ⟨r, rfl⟩ := ha; obtain ⟨s, rfl⟩ := hb; exact ⟨r - s, (EReal.coe_sub r s).symm⟩

/-- A finite sum of real numbers is a real number. -/
theorem IsR.sum {ι : Type*} (s : Finset ι) (f : ι → EReal) (h : ∀ i ∈ s, IsR (f i)) : IsR (∑ i ∈ s, f i) := by
  classical
  induction s using Finset.induction_on with
  | empty => rw [Finset.sum_empty]; exact IsR.zero
  | insert a s ha ih =>
    rw [Finset.sum_insert ha]
    exact (h a (Finset.mem_insert_self a s)).add (ih fun i hi => h i (Finset.mem_insert_of_mem hi))

/-- The quotient of a real number by a nonzero real number. -/
theorem IsR.div {a b : EReal} (ha : IsR a) (hb : IsR b) (hb0 : b ≠ 0) : IsR (Ideal.div a b) := by
  obtain ⟨s, rfl⟩ := hb
  have hs : s ≠ 0 := fun e => hb0 (by rw [e]; rfl)
  rw [Ideal.div_coe hs]
  exact ha.mul (IsR.coe _)

theorem IsR.logistic {a : EReal} (ha : IsR a) : IsR (Ideal.logistic a) := by
  obtain ⟨r, rfl⟩ := ha; exact ⟨_, Ideal.logistic_coe r⟩

theorem IsR.tanh {a : EReal} (ha : IsR a) : IsR (Ideal.tanh a) := by
  obtain ⟨r, rfl⟩ := ha; exact ⟨_, Ideal.tanh_coe r⟩

/-- Among real numbers the product distributes over the sum. -/
theorem add_mul_of_isR {a b c : EReal} (ha : IsR a) (hb : IsR b) (hc : IsR c) : (a + b) * c = a * c + b * c := by
  obtain ⟨r, rfl⟩ := ha; obtain ⟨s, rfl⟩ := hb; obtain ⟨t, rfl⟩ := hc
  rw [← EReal.coe_add, ← EReal.coe_mul, ← EReal.coe_mul, ← EReal.coe_mul, ← EReal.coe_add, add_mul]

end Cert.LibReal

end
-- ==== Proof.LibRealOps.lean ====
/-
  More operations under which the real numbers among the extended reals are closed: negation, the exponential, the
  cosine; the pattern of `2.0`; and the inclusion of the real numbers commuting with finite sums (what lets a law of
  finite real sums be carried to extended reals that are real numbers).
-/
import Idealize.ShloMosaic.PureOps.Ideal
import proofs.«128569_j65481071409932_2_alg».proof.Proof.LibReal

noncomputable section

namespace Cert.LibRealOps

open Idealize.ShloMosaic Cert.LibReal

/-- The pattern of `2.0` denotes the real number 2. -/
theorem two_eq : Ideal.ofBits .f32 0x40000000#32 = ((2 : ℝ) : EReal) := by
  simp [Ideal.ofBits, Ideal.ieee, -EReal.coe_mul]; norm_num

theorem isR_two : IsR (Ideal.ofBits .f32 0x40000000#32) := ⟨2, two_eq⟩

/-- The negative of a real number is a real number. -/
theorem isR_neg {a : EReal} (ha : IsR a) : IsR (-a) := by
  obtain ⟨r, rfl⟩ := ha; exact ⟨-r, (EReal.coe_neg r).symm⟩

/-- The exponential of a real number is a real number. -/
theorem isR_exp {a : EReal} (ha : IsR a) : IsR (Ideal.exp a) := by
  obtain ⟨r, rfl⟩ := ha; exact ⟨Real.exp r, rfl⟩

/-- The cosine of a real number is a real number. -/
theorem isR_cos {a : EReal} (ha : IsR a) : IsR (Ideal.cos a) := by
  obtain ⟨r, rfl⟩ := ha; exact ⟨Real.cos r, rfl⟩

/-- The inclusion of the real numbers commutes with finite sums. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

end Cert.LibRealOps

end
-- ==== Proof.ReadoutLaw.lean ====
/-
  A linear head over per-wire affine features, folded.

  Per wire `k` a feature is `e₂ₖ · (((2 · xₖ) · e₁ₖ) · cₖ + 2 · dₖ)` with `e₂ₖ = exp (-s₂ₖ)`, `e₁ₖ = exp (-sₖ)`,
  `cₖ = cos φₖ`; the head takes `∑ₖ featureₖ · wₖ + b`. Since only `xₖ` depends on the batch row, the same number is
  `∑ₖ xₖ · (((wₖ · (e₂ₖ · 2)) · e₁ₖ) · cₖ) + (b + ∑ₖ (wₖ · (e₂ₖ · 2)) · dₖ)`: one weight per wire and one scalar, both
  independent of the row. The two spellings agree by distributivity and by splitting the sum — laws of the real
  numbers that fail at the infinities of the extended reals, so the statement is made for entries that are real numbers
  (the exponential and the cosine of a real number are real numbers).
-/
import Idealize.ShloMosaic.PureOps.Ideal
import Idealize.ShloMosaic.PureOps.Ideal.Laws
import Idealize.ShloMosaic.Lib.ValueIdx
import proofs.«128569_j65481071409932_2_alg».proof.Proof.LibReal
import proofs.«128569_j65481071409932_2_alg».proof.Proof.LibRealOps

noncomputable section

namespace Cert.Readout

open Idealize.ShloMosaic Idealize.ShloMosaic.ValueIdx Cert.LibReal Cert.LibRealOps

/-! ## The law -/

/-- Over the real numbers: the folded spelling equals the feature-by-feature one. -/
theorem real_law {n : ℕ} (x w e₂ e₁ c d : Fin n → ℝ) (t b : ℝ) :
    (∑ k, x k * (((w k * (e₂ k * t)) * e₁ k) * c k)) + (b + ∑ k, (w k * (e₂ k * t)) * d k)
      = (∑ k, (e₂ k * ((((t * x k) * e₁ k) * c k) + (t * d k))) * w k) + b := by
  rw [add_left_comm, ← Finset.sum_add_distrib, add_comm]
  congr 1
  exact Finset.sum_congr rfl fun k _ => by ring

/-- The same over the extended reals, for entries that are real numbers. -/
theorem readout_law {n : ℕ} (x w e₂ e₁ c d : Fin n → EReal) (t b : EReal)
    (hx : ∀ k, IsR (x k)) (hw : ∀ k, IsR (w k)) (he₂ : ∀ k, IsR (e₂ k)) (he₁ : ∀ k, IsR (e₁ k))
    (hc : ∀ k, IsR (c k)) (hd : ∀ k, IsR (d k)) (ht : IsR t) (hb : IsR b) :
    (∑ k, x k * (((w k * (e₂ k * t)) * e₁ k) * c k)) + (b + (0 + ∑ k, (w k * (e₂ k * t)) * d k))
      = (∑ k, (e₂ k * ((((t * x k) * e₁ k) * c k) + (t * d k))) * w k) + b := by
  choose xr hxr using hx
  choose wr hwr using hw
  choose e₂r he₂r using he₂
  choose e₁r he₁r using he₁
  choose cr hcr using hc
  choose dr hdr using hd
  obtain ⟨tr, rfl⟩ := ht
  obtain ⟨br, rfl⟩ := hb
  rw [zero_add]
  simp only [hxr, hwr, he₂r, he₁r, hcr, hdr]
  simp only [← EReal.coe_mul, ← EReal.coe_add, ← coe_sum]
  exact congrArg _ (real_law xr wr e₂r e₁r cr dr tr br)

/-! ## The two spellings over the arrays -/

/-- The folded spelling at batch row `r`: the row of `x` against one weight per wire, plus one scalar. -/
def foldedAt (x : (⟨2, ![65536, 512]⟩ : Shape).Idx → EReal) (s φ d s₂ : (⟨1, ![512]⟩ : Shape).Idx → EReal)
    (w : (⟨2, ![1, 512]⟩ : Shape).Idx → EReal) (b : (⟨1, ![1]⟩ : Shape).Idx → EReal) (r : Fin 65536) : EReal :=
  (∑ k : Fin 512, x (ix2 r k)
      * (((w (ix2 (0 : Fin 1) k) * (Ideal.exp (-(s₂ (ix1 k))) * Ideal.ofBits .f32 0x40000000#32))
          * Ideal.exp (-(s (ix1 k)))) * Ideal.cos (φ (ix1 k))))
    + (b (ix1 (0 : Fin 1))
        + (0 + ∑ k : Fin 512, (w (ix2 (0 : Fin 1) k) * (Ideal.exp (-(s₂ (ix1 k))) * Ideal.ofBits .f32 0x40000000#32))
            * d (ix1 k)))

/-- The feature-by-feature spelling at batch row `r`. -/
def featuresAt (x : (⟨2, ![65536, 512]⟩ : Shape).Idx → EReal) (s φ d s₂ : (⟨1, ![512]⟩ : Shape).Idx → EReal)
    (w : (⟨2, ![1, 512]⟩ : Shape).Idx → EReal) (b : (⟨1, ![1]⟩ : Shape).Idx → EReal) (r : Fin 65536) : EReal :=
  (∑ k : Fin 512, (Ideal.exp (-(s₂ (ix1 k)))
      * ((((Ideal.ofBits .f32 0x40000000#32 * x (ix2 r k)) * Ideal.exp (-(s (ix1 k)))) * Ideal.cos (φ (ix1 k)))
          + (Ideal.ofBits .f32 0x40000000#32 * d (ix1 k)))) * w (ix2 (0 : Fin 1) k))
    + b (ix1 (0 : Fin 1))

/-- The result array of the folded spelling. -/
def folded (x : (⟨2, ![65536, 512]⟩ : Shape).Idx → EReal) (s φ d s₂ : (⟨1, ![512]⟩ : Shape).Idx → EReal)
    (w : (⟨2, ![1, 512]⟩ : Shape).Idx → EReal) (b : (⟨1, ![1]⟩ : Shape).Idx → EReal) :
    (⟨1, ![65536]⟩ : Shape).Idx → EReal := fun i => foldedAt x s φ d s₂ w b (i 0)

/-- On arrays of real numbers the two spellings agree at every row. -/
theorem foldedAt_eq_featuresAt (x : (⟨2, ![65536, 512]⟩ : Shape).Idx → EReal)
    (s φ d s₂ : (⟨1, ![512]⟩ : Shape).Idx → EReal) (w : (⟨2, ![1, 512]⟩ : Shape).Idx → EReal)
    (b : (⟨1, ![1]⟩ : Shape).Idx → EReal)
    (hx : ∀ i, IsR (x i)) (hs : ∀ i, IsR (s i)) (hφ : ∀ i, IsR (φ i)) (hd : ∀ i, IsR (d i)) (hs₂ : ∀ i, IsR (s₂ i))
    (hw : ∀ i, IsR (w i)) (hb : ∀ i, IsR (b i)) (r : Fin 65536) :
    foldedAt x s φ d s₂ w b r = featuresAt x s φ d s₂ w b r :=
  readout_law (fun k => x (ix2 r k)) (fun k => w (ix2 (0 : Fin 1) k)) (fun k => Ideal.exp (-(s₂ (ix1 k))))
    (fun k => Ideal.exp (-(s (ix1 k)))) (fun k => Ideal.cos (φ (ix1 k))) (fun k => d (ix1 k))
    (Ideal.ofBits .f32 0x40000000#32) (b (ix1 (0 : Fin 1)))
    (fun k => hx _) (fun k => hw _) (fun k => isR_exp (isR_neg (hs₂ _))) (fun k => isR_exp (isR_neg (hs _)))
    (fun k => isR_cos (hφ _)) (fun k => hd _) isR_two (hb _)

end Cert.Readout

end
-- ==== Proof.LibColumn.lean ====
/-
  Layout operations of "keepdims" row statistics, read at an index given by coordinates.

  A row statistic of an `[a, b]` array (a sum, a mean, a variance along the second axis) lives in an `[a]` array,
  is given a unit column axis, `[a, 1]`, and is spread back over the row, `[a, b]`; a per-feature parameter `[b]` is
  given a unit row axis `[1, b]` and spread over the rows. Each of these steps, in a kernel's vector spelling
  (`shapeCast`, `broadcastTo`) and in the host's (`broadcastInDim` with explicit axes), reads at `(p, c)` the
  operand at the evident coordinates. The lemmas are stated over indices built by `ix1` / `ix2` at every extent, so
  they apply to a printed operation by unification.
-/
import Idealize.ShloMosaic.Lib.ValueIdx
import Idealize.ShloMosaic.Lib.ValueLayout
import Idealize.ShloMosaic.Lib.Pipeline.Value

namespace Cert.LibColumn

open Idealize.ShloMosaic Idealize.ShloMosaic.ValueIdx

variable {α : Type}

/-- An `[a]` array cast to the column `[a, 1]` reads, at `(i, u)`, the operand at `i`, whatever the unit coordinate. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` spread over `[a, b]` reads, at `(p, c)`, the column's entry of row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The host's `[a] → [a, 1]` along axis 0 reads, at `(i, u)`, the operand at `i`. -/
theorem broadcastInDim_a_a1_apply {a : ℕ} (x : (⟨1, ![a]⟩ : Shape).Idx → α)
    (h : (⟨1, ![a]⟩ : Shape).BroadcastsInDim ⟨2, ![a, 1]⟩ ![0]) (i : Fin a) (u : Fin 1) :
    broadcastInDim ⟨2, ![a, 1]⟩ ![0] h x (ix2 i u) = x (ix1 i) := by
  refine broadcastInDim_apply ![0] h x (ix2 i u) (ix1 i) fun ax => ?_
  match ax with
  | ⟨0, _⟩ =>
    show i.val = if a = 1 then 0 else i.val
    split
    · have := i.isLt; omega
    · rfl

/-- The host's `[a, 1] → [a, b]` along axes (0, 1) reads, at `(p, c)`, the column's entry of row `p`. -/
theorem broadcastInDim_a1_ab_apply {a b : ℕ} (v : (⟨2, ![a, 1]⟩ : Shape).Idx → α)
    (h : (⟨2, ![a, 1]⟩ : Shape).BroadcastsInDim ⟨2, ![a, b]⟩ ![0, 1]) (p : Fin a) (c : Fin b) :
    broadcastInDim ⟨2, ![a, b]⟩ ![0, 1] h v (ix2 p c) = v (ix2 p (0 : Fin 1)) := by
  refine broadcastInDim_apply ![0, 1] h v (ix2 p c) (ix2 p (0 : Fin 1)) fun ax => ?_
  match ax with
  | ⟨0, _⟩ =>
    show p.val = if a = 1 then 0 else p.val
    split
    · have := p.isLt; omega
    · rfl
  | ⟨1, _⟩ => rfl

/-- The host's `[b] → [1, b]` along axis 1 reads, at `(u, c)`, the operand at `c`. -/
theorem broadcastInDim_b_1b_apply {b : ℕ} (x : (⟨1, ![b]⟩ : Shape).Idx → α)
    (h : (⟨1, ![b]⟩ : Shape).BroadcastsInDim ⟨2, ![1, b]⟩ ![1]) (u : Fin 1) (c : Fin b) :
    broadcastInDim ⟨2, ![1, b]⟩ ![1] h x (ix2 u c) = x (ix1 c) := by
  refine broadcastInDim_apply ![1] h x (ix2 u c) (ix1 c) fun ax => ?_
  match ax with
  | ⟨0, _⟩ =>
    show c.val = if b = 1 then 0 else c.val
    split
    · have := c.isLt; omega
    · rfl

/-- The host's `[1, b] → [a, b]` along axes (0, 1) reads, at `(p, c)`, the one row at `c`. -/
theorem broadcastInDim_1b_ab_apply {a b : ℕ} (v : (⟨2, ![1, b]⟩ : Shape).Idx → α)
    (h : (⟨2, ![1, b]⟩ : Shape).BroadcastsInDim ⟨2, ![a, b]⟩ ![0, 1]) (p : Fin a) (c : Fin b) :
    broadcastInDim ⟨2, ![a, b]⟩ ![0, 1] h v (ix2 p c) = v (ix2 (0 : Fin 1) c) := by
  refine broadcastInDim_apply ![0, 1] h v (ix2 p c) (ix2 (0 : Fin 1) c) fun ax => ?_
  match ax with
  | ⟨0, _⟩ => rfl
  | ⟨1, _⟩ =>
    show c.val = if b = 1 then 0 else c.val
    split
    · have := c.isLt; omega
    · rfl

/-- The host's spread of a rank-0 value over any shape reads, everywhere, that value. -/
theorem broadcastInDim_scalar_apply {t : Shape} (x : (⟨0, ![]⟩ : Shape).Idx → α)
    (h : (⟨0, ![]⟩ : Shape).BroadcastsInDim t ![]) (j : t.Idx) :
    broadcastInDim t ![] h x j = x ix0 :=
  broadcastInDim_apply ![] h x j ix0 fun ax => ax.elim0

end Cert.LibColumn
-- ==== Proof.LibFinite.lean ====
/-
  A printed finiteness precondition read back. `jnp.all(|x| < +∞)` prints as a reduction by `and`, from the constant 1, of
  the comparison of `|x|` with the broadcast pattern of `+∞`; when that reduction is 1, every entry of `x` is a real
  number: an extended real whose absolute value `max a (-a)` is below `⊤` is neither infinity.
-/
import Idealize.ShloMosaic.Lib.ReduceAll
import Idealize.ShloMosaic.Lib.ValueIdx
import Idealize.ShloMosaic.PureOps.Ideal.Laws
import proofs.«128569_j65481071409932_2_alg».proof.Proof.LibReal
import proofs.«128569_j65481071409932_2_alg».proof.Proof.LibColumn

noncomputable section

namespace Cert.LibFinite

open Idealize.ShloMosaic Cert.LibReal

/-- The shape of rank zero has one index. -/
instance : Subsingleton (⟨0, ![]⟩ : Shape).Idx := ⟨fun _ _ => funext fun d => d.elim0⟩

/-- An extended real whose absolute value compares below the pattern of `+∞` is a real number. -/
theorem isR_of_abs_lt_inf (a : EReal)
    (h : Ideal.cmp .olt (max a (-a)) (Ideal.ofBits .f32 0x7F800000#32) = 1#1) : IsR a := by
  have htop : Ideal.ofBits .f32 0x7F800000#32 = ⊤ := by simp [Ideal.ofBits, Ideal.ieee]
  rw [htop] at h
  unfold Ideal.cmp at h
  have hlt : max a (-a) < ⊤ := by
    by_contra hn
    simp [hn] at h
  rw [max_lt_iff] at hlt
  induction a using EReal.rec with
  | bot => simp at hlt
  | coe r => exact ⟨r, rfl⟩
  | top => simp at hlt

/-- `jnp.all(|x| < +∞)` being 1 makes every entry of `x` a real number. -/
theorem isR_of_all_finite {s : Shape} {axes : List (Fin s.rank)} (x : FVec Ideal s .f32)
    (bc : (⟨0, ![]⟩ : Shape).BroadcastsInDim s (![] : Fin 0 → Fin s.rank)) (h : s.ReducesTo axes ⟨0, ![]⟩)
    (hu : 0 < (⟨0, ![]⟩ : Shape).numel) (j : (⟨0, ![]⟩ : Shape).Idx)
    (e : Host.reduce IntOp.andi
        (cmpf .olt (Host.absf x) (broadcastInDim s ![] bc (constant (F := Ideal) ⟨0, ![]⟩ .f32 0x7F800000#32)))
        (constantI ⟨0, ![]⟩ 1 1#1) h hu j = 1#1)
    (i : s.Idx) : IsR (x i) := by
  have hi := Host.reduce_andi_all _ _ h hu j e i
  rw [ValueIdx.cmpf_apply, Cert.LibColumn.broadcastInDim_scalar_apply] at hi
  exact isR_of_abs_lt_inf (x i) hi

end Cert.LibFinite

end
-- ==== Proof.FiniteInputs.lean ====
/-
  The precondition, read back: every entry of every float input is a real number.

  The printed precondition is the conjunction, input by input, of `all (|x| < +∞)`. A conjunction of bits is 1 exactly
  when each is, and an `all` that is 1 gives the comparison at every index, which makes the entry a real number.
-/
import proofs.«128569_j65481071409932_2_alg».proof.Pre_finite_inputs
import proofs.«128569_j65481071409932_2_alg».proof.Proof.LibFinite
import Idealize.ShloMosaic.Lib.Affine

noncomputable section

namespace Cert.Pre_finite_inputs.Head

open Cert.Pre_finite_inputs Cert.Pre_finite_inputs.Facts Idealize.ShloMosaic Cert.LibReal Cert.LibFinite

/-- Under the precondition the seven inputs the programs read hold real numbers only. -/
theorem reals_of_pre [Cert.Pre_finite_inputs.Facts] (x0 : FVec Ideal S65536x512 .f32) (x1 x2 x3 x4 x5 : FVec Ideal S512 .f32)
    (x6 : FVec Ideal S1x512 .f32) (x7 : FVec Ideal S1 .f32)
    (h : fn (F := Ideal) x0 x1 x2 x3 x4 x5 x6 x7 = fun _ => 1#1) :
    (∀ i, IsR (x0 i)) ∧ (∀ i, IsR (x1 i)) ∧ (∀ i, IsR (x2 i)) ∧ (∀ i, IsR (x3 i)) ∧ (∀ i, IsR (x4 i))
      ∧ (∀ i, IsR (x6 i)) ∧ (∀ i, IsR (x7 i)) := by
  have h0 := congrFun h ValueIdx.ix0
  dsimp only [fn, fn_part1, fn_part2] at h0
  obtain ⟨h0, e7⟩ := IntOp.andi_eq_one.mp h0
  obtain ⟨h0, e6⟩ := IntOp.andi_eq_one.mp h0
  obtain ⟨h0, -⟩ := IntOp.andi_eq_one.mp h0
  obtain ⟨h0, e4⟩ := IntOp.andi_eq_one.mp h0
  obtain ⟨h0, e3⟩ := IntOp.andi_eq_one.mp h0
  obtain ⟨h0, e2⟩ := IntOp.andi_eq_one.mp h0
  obtain ⟨e0, e1⟩ := IntOp.andi_eq_one.mp h0
  exact ⟨isR_of_all_finite x0 _ _ _ _ e0, isR_of_all_finite x1 _ _ _ _ e1, isR_of_all_finite x2 _ _ _ _ e2,
    isR_of_all_finite x3 _ _ _ _ e3, isR_of_all_finite x4 _ _ _ _ e4, isR_of_all_finite x6 _ _ _ _ e6,
    isR_of_all_finite x7 _ _ _ _ e7⟩

end Cert.Pre_finite_inputs.Head

end
-- ==== Proof.ReferenceAt.lean ====
/-
  The reference, read at a batch row.

  The reference forms the feature array `exp(-s₂) · (((2 · x) · exp(-s)) · cos φ + 2 · d)` over the whole batch,
  contracts it with the head's weight row and adds the head's bias. Read at batch row `r`, operation by operation, that
  is the feature-by-feature spelling: every broadcast reads its operand at the wire coordinate, the contraction is the
  sum over the wires, the final reshape drops the unit column.
-/
import proofs.«128569_j65481071409932_2_alg».proof.Proof.Gen.ReferenceIdeal.Read
import proofs.«128569_j65481071409932_2_alg».proof.Proof.ReadoutLaw

noncomputable section

namespace Cert.ReferenceIdeal.Head

open Cert.ReferenceIdeal Cert.ReferenceIdeal.Gen Cert.ReferenceIdeal.Read
open Idealize.ShloMosaic Idealize.ShloMosaic.ValueIdx

/-- The reference's result at batch row `r` is the feature-by-feature spelling there. -/
theorem result_at (x0 : (⟨S65536x512, .f32⟩ : BufTy).Contents (Elt Ideal)) (x1 x2 x3 x4 : (⟨S512, .f32⟩ : BufTy).Contents (Elt Ideal))
    (x6 : (⟨S1x512, .f32⟩ : BufTy).Contents (Elt Ideal)) (x7 : (⟨S1, .f32⟩ : BufTy).Contents (Elt Ideal)) (r : Fin 65536) :
    val_main_v26 (F := Ideal) x0 x1 x2 x3 x4 x6 x7 (ix1 r) = Cert.Readout.featuresAt x0 x1 x2 x3 x4 x6 x7 r := by
  -- the coordinates each operand is read at
  have hl : ∀ k : Fin 512, lidx_main_v22 (idx_main_v26 (ix1 r)) k = ix2 r k := fun k => funext fun a => Fin.ext (by
    match a with
    | ⟨0, _⟩ => exact Nat.div_one _
    | ⟨1, _⟩ => rfl)
  have hr : ∀ k : Fin 512, idx_main_v21 (ridx_main_v22 (idx_main_v26 (ix1 r)) k) = ix2 (0 : Fin 1) k := fun k =>
    funext fun a => Fin.ext (by
      match a with
      | ⟨0, _⟩ => rfl
      | ⟨1, _⟩ => rfl)
  have h7 : idx_main_v23 (idx_main_v24 (idx_main_v26 (ix1 r))) = ix1 (0 : Fin 1) := funext fun a => Fin.ext (by
    match a with
    | ⟨0, _⟩ => rfl)
  have h6 : ∀ k : Fin 512, idx_main_v6 (idx_main_v7 (ix2 r k)) = ix1 k := fun k => funext fun a => Fin.ext (by
    match a with
    | ⟨0, _⟩ => rfl)
  have h10 : ∀ k : Fin 512, idx_main_v10 (idx_main_v11 (ix2 r k)) = ix1 k := fun k => funext fun a => Fin.ext (by
    match a with
    | ⟨0, _⟩ => rfl)
  have h15 : ∀ k : Fin 512, idx_main_v15 (idx_main_v16 (ix2 r k)) = ix1 k := fun k => funext fun a => Fin.ext (by
    match a with
    | ⟨0, _⟩ => rfl)
  have h18 : ∀ k : Fin 512, idx_main_v18 (idx_main_v19 (ix2 r k)) = ix1 k := fun k => funext fun a => Fin.ext (by
    match a with
    | ⟨0, _⟩ => rfl)
  unfold Cert.Readout.featuresAt
  rw [val_main_v26_apply, val_main_v25_apply, val_main_v22_apply, val_main_v24_apply, val_main_v23_apply, h7]
  simp only [hl, val_main_v21_apply, hr, val_main_v20_apply, val_main_v19_apply, val_main_v18_apply, h18,
    val_main_v1_apply, val_main_v0_apply, val_main_v17_apply, val_main_v12_apply, val_main_v8_apply,
    val_main_v3_apply, val_main_v2_apply, val_main_cst_apply, val_main_v7_apply, val_main_v6_apply, h6,
    val_main_v5_apply, val_main_v4_apply, val_main_v11_apply, val_main_v10_apply, h10, val_main_v9_apply,
    val_main_v16_apply, val_main_v15_apply, h15, val_main_v14_apply, val_main_v13_apply, val_main_cst_0_apply,
    Ideal.addf_def, Ideal.mulf_def, Ideal.hostNegf_def, Ideal.negf_def, Ideal.hostUnary_exp_def,
    Ideal.hostUnary_cos_def, Ideal.ofBits_def]

end Cert.ReferenceIdeal.Head

end
-- ==== Proof.BodyAt.lean ====
/-
  The kernel body, read at a row of its block.

  On a block of 4096 batch rows the body multiplies every row by the weight row it is handed, sums each product row over
  the 512 wires, and adds the one scalar it is handed. At row `p` (the output block is a column, so its second
  coordinate is the unit one) that is `∑ₖ x(p, k) · c(0, k) + bias(0, 0)`: the weight row is spread over the rows, the
  lane sum of a row is the sum over its wires, and the sum vector is turned into a column.
-/
import proofs.«128569_j65481071409932_2_alg».proof.Proof.Gen.KernelIdeal.Skeleton
import proofs.«128569_j65481071409932_2_alg».proof.Proof.LibColumn
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Head

open Cert.KernelIdeal Cert.KernelIdeal.Gen Cert.KernelIdeal.Facts₀
open Idealize.ShloMosaic Idealize.ShloMosaic.ValueIdx

/-- The lane sum of a [4096, 512] block, read at row `p`: the sum of the row's 512 entries. -/
theorem rowSum_at (src : FVec Ideal S4096x512 .f32) (h : S4096x512.Reduces [1] S4096) (p : Fin 4096) :
    multiReduction (F := Ideal) .add [1] S4096 src 0x00000000#32 h (.inl rfl) rfl (ix1 p)
      = ∑ k : Fin 512, src (ix2 p k) :=
  (Ideal.multiReduction_add_single src 0x00000000#32 h (.inl rfl) rfl (ix1 p)).trans
    (Finset.sum_congr rfl fun k _ => congrArg src (funext fun a => Fin.ext (by
      match a with
      | ⟨0, _⟩ => rfl
      | ⟨1, _⟩ => rfl)))

/-- The body's stored value at row `p` of the block. -/
theorem body_at (x0 : Vec Ideal S4096x512 .f32) (x1 : Vec Ideal S1x512 .f32) (x2 : Vec Ideal S1x1 .f32)
    (p : Fin 4096) (u : Fin 1) :
    k0_pay1 (F := Ideal) x0 x1 x2 (ix2 p u)
      = (∑ k : Fin 512, x0 (ix2 p k) * x1 (ix2 (0 : Fin 1) k)) + x2 (ix2 (0 : Fin 1) (0 : Fin 1)) := by
  unfold k0_pay1
  dsimp only
  refine (addf_apply _ _ _).trans ?_
  refine congrArg₂ (· + ·) ?_ ?_
  · refine (Cert.LibColumn.shapeCast_a_a1_apply _ _ p u).trans ?_
    refine (rowSum_at _ _ p).trans ?_
    refine Finset.sum_congr rfl fun k _ => ?_
    refine (mulf_apply _ _ _).trans ?_
    refine congrArg (x0 (ix2 p k) * ·) ?_
    refine (broadcastTo_1b_ab_apply _ _ p k).trans ?_
    rw [shapeCast_self]
  · refine (broadcastTo_1b_ab_apply _ _ p u).trans ?_
    rw [shapeCast_self]
    exact congrArg (fun v => x2 (ix2 (0 : Fin 1) v)) (Subsingleton.elim u 0)

end Cert.KernelIdeal.Head

end
-- ==== Proof.LibRank01.lean ====
/-
  Layout operations and sums at ranks zero and one, read at an index.

  A rank-zero array has the one index `ix0`; a vector's indices are `ix1 k`. Reshapes between a rank-zero value, a
  one-entry vector and any shape read that one value; a column `[a, 1]` cast to the vector `[a]` reads the column's row;
  a sum over a vector's indices is the sum over `k : Fin n`; and the host's sum of a vector into rank zero, at the ideal
  values, is the initial value plus that sum. Stated at every extent, so they apply to a printed operation by
  unification.
-/
import Idealize.ShloMosaic.Lib.ValueIdx
import Idealize.ShloMosaic.Lib.Pipeline.Value
import Idealize.ShloMosaic.PureOps.Ideal
import Idealize.ShloMosaic.PureOps.Ideal.Laws

noncomputable section

namespace Cert.LibRank01

open Idealize.ShloMosaic Idealize.ShloMosaic.ValueIdx

/-- A rank-zero value cast to any shape reads, everywhere, that value. -/
theorem shapeCast_of_scalar_apply {α : Type} {t : Shape} (x : (⟨0, ![]⟩ : Shape).Idx → α)
    (h : (⟨0, ![]⟩ : Shape).ShapeCasts t) (j : t.Idx) : shapeCast t x h j = x ix0 := by
  unfold shapeCast
  exact congrArg x (eq_ix0 _)

/-- A one-entry vector cast to rank zero reads its entry. -/
theorem shapeCast_1_scalar_apply {α : Type} (x : (⟨1, ![1]⟩ : Shape).Idx → α)
    (h : (⟨1, ![1]⟩ : Shape).ShapeCasts ⟨0, ![]⟩) (j : (⟨0, ![]⟩ : Shape).Idx) :
    shapeCast ⟨0, ![]⟩ x h j = x (ix1 (0 : Fin 1)) := by
  unfold shapeCast
  refine congrArg x ((eq_ix1 _).trans (congrArg ix1 (Subsingleton.elim _ _)))

/-- A column `[a, 1]` cast to the vector `[a]` reads, at `i`, the column's row `i`. -/
theorem shapeCast_a1_a_apply {α : Type} {a : ℕ} (x : (⟨2, ![a, 1]⟩ : Shape).Idx → α)
    (h : (⟨2, ![a, 1]⟩ : Shape).ShapeCasts ⟨1, ![a]⟩) (i : Fin a) :
    shapeCast ⟨1, ![a]⟩ x h (ix1 i) = x (ix2 i (0 : Fin 1)) :=
  shapeCast_apply x h _ _ (by
    rw [Shape.rowMajor_val_two, Shape.rowMajor_val_one]
    show i.val * 1 + 0 = i.val
    omega)

/-- The indices of a vector of length `n` are the numbers below `n` … -/
def idxEquiv1 {n : Nat} : (⟨1, ![n]⟩ : Shape).Idx ≃ Fin n where
  toFun i := i 0
  invFun k := ix1 k
  left_inv i := (eq_ix1 i).symm
  right_inv _ := rfl

/-- … so a sum over them is the sum over those numbers. -/
theorem sum_idx1 {M : Type*} [AddCommMonoid M] {n : Nat} (f : (⟨1, ![n]⟩ : Shape).Idx → M) :
    ∑ i, f i = ∑ k : Fin n, f (ix1 k) := by
  rw [← Equiv.sum_comp (idxEquiv1 (n := n)).symm f]
  rfl

/-- The host's sum of a vector into rank zero, at the ideal values: the initial value plus the sum of the entries. -/
theorem reduceAdd_vector_scalar_apply {n : Nat} {φ : FTy} (x : FVec Ideal ⟨1, ![n]⟩ φ) (init : FVec Ideal ⟨0, ![]⟩ φ)
    (h : (⟨1, ![n]⟩ : Shape).ReducesTo [0] ⟨0, ![]⟩) (hu : 0 < (⟨0, ![]⟩ : Shape).numel) (j : (⟨0, ![]⟩ : Shape).Idx) :
    Host.reduceAdd (F := Ideal) x init h hu j = init ix0 + ∑ k : Fin n, x (ix1 k) := by
  show Ideal.hostReduceAdd h x (init (Shape.Idx.first hu)) j = _
  rw [Ideal.hostReduceAdd_total h (fun b => b.elim0), eq_ix0 (Shape.Idx.first hu), sum_idx1]

end Cert.LibRank01

end
-- ==== Proof.Operands.lean ====
/-
  The two small operands the kernel is launched with.

  Before the launch the program folds the circuit's per-wire constants: the weight row
  `c(0, k) = ((w(0, k) · (exp(-s₂ₖ) · 2)) · exp(-sₖ)) · cos φₖ` and the one-cell bias
  `b(0) + (0 + ∑ₖ (w(0, k) · (exp(-s₂ₖ) · 2)) · dₖ)`. Both are read here off the host operations that precede the launch, first
  as the operations' composed term and then entry by entry.
-/
import proofs.«128569_j65481071409932_2_alg».proof.Proof.Gen.KernelIdeal.Frame
import proofs.«128569_j65481071409932_2_alg».proof.Proof.LibColumn
import proofs.«128569_j65481071409932_2_alg».proof.Proof.LibRank01
import Idealize.ShloMosaic.Lib.StableHlo.Run
import Idealize.ShloMosaic.Lib.ValueIdx
import Idealize.ShloMosaic.Lib.ValueLayout
import Idealize.ShloMosaic.Lib.Pipeline.Value
import Idealize.ShloMosaic.PureOps.Ideal
import Idealize.ShloMosaic.PureOps.Ideal.Laws

noncomputable section

namespace Cert.KernelIdeal.Head

open Cert.KernelIdeal Cert.KernelIdeal.Gen
open Idealize.ShloMosaic Idealize.ShloMosaic.TcCoe Idealize.SL.Sem Idealize.ShloMosaic.StableHlo Idealize.ShloMosaic.ValueIdx

/-! ## The operands as terms of the arguments -/

/-- The folded weight row as the host operations compute it. -/
def weightRow (x1 x2 x4 : FVec Ideal S512 .f32) (x6 : FVec Ideal S1x512 .f32) : FVec Ideal S1x512 .f32 :=
  shapeCast S1x512
    (mulf (mulf (mulf (shapeCast S512 x6 shapeCasts_S1x512_S512)
        (mulf (Host.exp (Host.negf x4)) (broadcastInDim S512 ![] bcast_S_S512 (constant (F := Ideal) S_ .f32 0x40000000#32))))
      (Host.exp (Host.negf x1))) (Host.cos x2))
    shapeCasts_S512_S1x512

/-- The folded bias cell as the host operations compute it. -/
def biasCell (x3 x4 : FVec Ideal S512 .f32) (x6 : FVec Ideal S1x512 .f32) (x7 : FVec Ideal S1 .f32) : FVec Ideal S1x1 .f32 :=
  shapeCast S1x1
    (addf (shapeCast S_ x7 shapeCasts_S1_S_)
      (Host.reduceAdd (F := Ideal)
        (mulf (mulf (shapeCast S512 x6 shapeCasts_S1x512_S512)
          (mulf (Host.exp (Host.negf x4)) (broadcastInDim S512 ![] bcast_S_S512 (constant (F := Ideal) S_ .f32 0x40000000#32))))
          x3)
        (constant (F := Ideal) S_ .f32 0x00000000#32) reducesTo_S512_S_d0 h_S_))
    shapeCasts_S_S1x1

variable (m : (ℓ : Loc nD τ sig) → Buf (Elt Ideal) ℓ)

/-- The region finds the weight row in its second operand's array. -/
theorem found_weightRow (c : Dev nD) :
    (V m c main_v16 : FVec Ideal S1x512 .f32)
      = weightRow (m ((c : Thread nD τ).loc main_arg1)) (m ((c : Thread nD τ).loc main_arg2))
          (m ((c : Thread nD τ).loc main_arg4)) (m ((c : Thread nD τ).loc main_arg6)) := by
  show StableHlo.after hostOps0 (fun b => m (c, b)) (Proc.devRef .tc main_v16) = _
  after_results
  rfl

/-- The region finds the bias cell in its third operand's array. -/
theorem found_biasCell (c : Dev nD) :
    (V m c main_v17 : FVec Ideal S1x1 .f32)
      = biasCell (m ((c : Thread nD τ).loc main_arg3)) (m ((c : Thread nD τ).loc main_arg4))
          (m ((c : Thread nD τ).loc main_arg6)) (m ((c : Thread nD τ).loc main_arg7)) := by
  show StableHlo.after hostOps0 (fun b => m (c, b)) (Proc.devRef .tc main_v17) = _
  after_results
  rfl

/-! ## The operands entry by entry -/

/-- The common factor `w(0, k) · (exp(-s₂ₖ) · 2)` at wire `k`. -/
theorem scaledWeight_at (x4 : FVec Ideal S512 .f32) (x6 : FVec Ideal S1x512 .f32) (k : Fin 512) :
    mulf (shapeCast S512 x6 shapeCasts_S1x512_S512)
        (mulf (Host.exp (Host.negf x4)) (broadcastInDim S512 ![] bcast_S_S512 (constant (F := Ideal) S_ .f32 0x40000000#32)))
        (ix1 k)
      = x6 (ix2 (0 : Fin 1) k) * (Ideal.exp (-(x4 (ix1 k))) * Ideal.ofBits .f32 0x40000000#32) := by
  rw [mulf_apply, mulf_apply, shapeCast_1a_a_apply, Cert.LibColumn.broadcastInDim_scalar_apply, constant_apply]
  rfl

/-- The weight row at wire `k`. -/
theorem weightRow_at (x1 x2 x4 : FVec Ideal S512 .f32) (x6 : FVec Ideal S1x512 .f32) (k : Fin 512) :
    weightRow x1 x2 x4 x6 (ix2 (0 : Fin 1) k)
      = ((x6 (ix2 (0 : Fin 1) k) * (Ideal.exp (-(x4 (ix1 k))) * Ideal.ofBits .f32 0x40000000#32))
          * Ideal.exp (-(x1 (ix1 k)))) * Ideal.cos (x2 (ix1 k)) := by
  unfold weightRow
  rw [shapeCast_a_1a_apply, mulf_apply, mulf_apply, scaledWeight_at]
  rfl

/-- The bias cell's one entry. -/
theorem biasCell_at (x3 x4 : FVec Ideal S512 .f32) (x6 : FVec Ideal S1x512 .f32) (x7 : FVec Ideal S1 .f32) :
    biasCell x3 x4 x6 x7 (ix2 (0 : Fin 1) (0 : Fin 1))
      = x7 (ix1 (0 : Fin 1))
        + (0 + ∑ k : Fin 512, (x6 (ix2 (0 : Fin 1) k) * (Ideal.exp (-(x4 (ix1 k))) * Ideal.ofBits .f32 0x40000000#32))
            * x3 (ix1 k)) := by
  unfold biasCell
  rw [Cert.LibRank01.shapeCast_of_scalar_apply, addf_apply, Cert.LibRank01.shapeCast_1_scalar_apply,
    Cert.LibRank01.reduceAdd_vector_scalar_apply, constant_apply, Ideal.ofBits_zero_f32]
  refine congrArg (fun z => x7 (ix1 (0 : Fin 1)) + (0 + z)) (Finset.sum_congr rfl fun k _ => ?_)
  rw [mulf_apply, scaledWeight_at]

end Cert.KernelIdeal.Head

end
-- ==== Proof.Blocks.lean ====
/-
  From the blocks to the array.

  The grid has 16 points. Point `t` is handed rows `4096·t … 4096·t + 4095` of the batch (all 512 wires), the whole
  weight row and the bias cell, and writes rows `4096·t … 4096·t + 4095` of the one-column result. So row `p` of what
  point `t` writes back is the folded spelling at batch row `4096·t + p`, and since the 16 blocks of 4096 rows tile the
  65536 rows, the result array ends holding the folded spelling at every row.
-/
import proofs.«128569_j65481071409932_2_alg».proof.Proof.Gen.KernelIdeal.Frame
import proofs.«128569_j65481071409932_2_alg».proof.Proof.BodyAt
import proofs.«128569_j65481071409932_2_alg».proof.Proof.Operands
import proofs.«128569_j65481071409932_2_alg».proof.Proof.ReadoutLaw
import Idealize.ShloMosaic.Lib.Pipeline.Value

noncomputable section

namespace Cert.KernelIdeal.Head

open Cert.KernelIdeal Cert.KernelIdeal.Gen
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ)

theorem zero_offsets : (![0, 0] : Fin 2 → Nat) = fun _ => 0 := funext fun a => by fin_cases a <;> rfl

/-- The column the region leaves in its result array: at row `r` the folded spelling of the arguments there. -/
def column (c : Dev nD) : S65536x1.Idx → EReal := fun i =>
  Cert.Readout.foldedAt (m ((c : Thread nD τ).loc main_arg0)) (m ((c : Thread nD τ).loc main_arg1))
    (m ((c : Thread nD τ).loc main_arg2)) (m ((c : Thread nD τ).loc main_arg3)) (m ((c : Thread nD τ).loc main_arg4))
    (m ((c : Thread nD τ).loc main_arg6)) (m ((c : Thread nD τ).loc main_arg7)) ⟨(i 0).val, (i 0).isLt⟩

/-- Which block of its array each window is on at point `t`: the batch blocks move with the point, the two small
    operands stay. -/
theorem block_indices : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- The body's result at row `p` of a block whose rows are batch rows `r`, weight row and bias cell as launched: the
    folded spelling at `r`. -/
theorem point_row (x : FVec Ideal S65536x512 .f32) (a1 a2 a3 a4 : FVec Ideal S512 .f32) (a6 : FVec Ideal S1x512 .f32)
    (a7 : FVec Ideal S1 .f32) (x0 : Vec Ideal S4096x512 .f32) (x1 : Vec Ideal S1x512 .f32) (x2 : Vec Ideal S1x1 .f32)
    (p : Fin 4096) (u : Fin 1) (r : Fin 65536)
    (h0 : ∀ k : Fin 512, x0 (ix2 p k) = x (ix2 r k))
    (h1 : ∀ k : Fin 512, x1 (ix2 (0 : Fin 1) k) = weightRow a1 a2 a4 a6 (ix2 (0 : Fin 1) k))
    (h2 : x2 (ix2 (0 : Fin 1) (0 : Fin 1)) = biasCell a3 a4 a6 a7 (ix2 (0 : Fin 1) (0 : Fin 1))) :
    k0_pay1 (F := Ideal) x0 x1 x2 (ix2 p u) = Cert.Readout.foldedAt x a1 a2 a3 a4 a6 a7 r := by
  rw [body_at, h2, biasCell_at]
  unfold Cert.Readout.foldedAt
  refine congrArg (· + _) (Finset.sum_congr rfl fun k _ => ?_)
  rw [h0, h1, weightRow_at]

/-- What point `t` writes back is block `t` of the column. -/
theorem flushed_eq (c : Dev nD) (t : Fin cfg0.N) :
    (dats m 0 c).flushed 3 t = ((cfg0.win 3).blk t).view.read (Elt Ideal) (column m c) := by
  show (cfg0.win 3).cut (grid0.coords t) ((dats m 0 c).after 3 t) = _
  rw [after0_3]
  unfold out0_3
  rw [View.canon_unit_zero zero_offsets]
  simp only [View.ld_unit_zero (S := S4096x512) zero_offsets, View.ld_unit_zero (S := S1x512) zero_offsets,
    View.ld_unit_zero (S := S1x1) zero_offsets]
  obtain ⟨e00, e01, e10, e11, e20, e21, e30, e31⟩ := block_indices t
  refine funext fun (j : S4096x1.Idx) => ?_
  obtain ⟨p, u, rfl⟩ : ∃ (p : Fin 4096) (u : Fin 1), j = ix2 p u := ⟨j 0, j 1, eq_ix2 j⟩
  have ht : t.val < 16 := by have h := t.isLt; have e : cfg0.N = 16 := N_0; omega
  have hr : ((cfg0.win 3).blk t).view.emb (ix2 p u) (0 : Fin 2) = (⟨t.val * 4096 + p.val, by omega⟩ : Fin 65536) :=
    Fin.ext (by show win0_3.index t (0 : Fin 2) * 4096 + 1 * p.val = t.val * 4096 + p.val; omega)
  show k0_pay1 (F := Ideal) (iblk m c 0 t) (iblk m c 1 t) (iblk m c 2 t) (ix2 p u)
    = Cert.Readout.foldedAt _ _ _ _ _ _ _ ⟨(((cfg0.win 3).blk t).view.emb (ix2 p u) (0 : Fin 2)).val, _⟩
  refine (point_row (m ((c : Thread nD τ).loc main_arg0)) (m ((c : Thread nD τ).loc main_arg1))
    (m ((c : Thread nD τ).loc main_arg2)) (m ((c : Thread nD τ).loc main_arg3)) (m ((c : Thread nD τ).loc main_arg4))
    (m ((c : Thread nD τ).loc main_arg6)) (m ((c : Thread nD τ).loc main_arg7))
    (iblk m c 0 t) (iblk m c 1 t) (iblk m c 2 t) p u ⟨t.val * 4096 + p.val, by omega⟩ ?_ ?_ ?_).trans ?_
  · intro k
    show V m c main_arg0 (((cfg0.win 0).blk t).view.emb (ix2 p k)) = _
    rw [V_main_arg0]
    refine congrArg (m ((c : Thread nD τ).loc main_arg0)) (funext fun a => Fin.ext ?_)
    match a with
    | ⟨0, _⟩ => show win0_0.index t (0 : Fin 2) * 4096 + 1 * p.val = t.val * 4096 + p.val; omega
    | ⟨1, _⟩ => show win0_0.index t (1 : Fin 2) * 512 + 1 * k.val = k.val; omega
  · intro k
    show V m c main_v16 (((cfg0.win 1).blk t).view.emb (ix2 (0 : Fin 1) k)) = _
    rw [found_weightRow]
    refine congrArg (weightRow _ _ _ _) (funext fun a => Fin.ext ?_)
    match a with
    | ⟨0, _⟩ => show win0_1.index t (0 : Fin 2) * 1 + 1 * 0 = 0; omega
    | ⟨1, _⟩ => show win0_1.index t (1 : Fin 2) * 512 + 1 * k.val = k.val; omega
  · show V m c main_v17 (((cfg0.win 2).blk t).view.emb (ix2 (0 : Fin 1) (0 : Fin 1))) = _
    rw [found_biasCell]
    refine congrArg (biasCell _ _ _ _) (funext fun a => Fin.ext ?_)
    match a with
    | ⟨0, _⟩ => show win0_2.index t (0 : Fin 2) * 1 + 1 * 0 = 0; omega
    | ⟨1, _⟩ => show win0_2.index t (1 : Fin 2) * 1 + 1 * 0 = 0; omega
  · exact congrArg (Cert.Readout.foldedAt _ _ _ _ _ _ _) (Fin.ext (congrArg Fin.val hr).symm)

/-- An index of the result array is in point `t`'s block iff each coordinate is in the block's range on its axis. -/
theorem mem_block (t : Fin cfg0.N) (i : S65536x1.Idx) :
    i ∈ ((cfg0.win 3).blk t).view.set ↔ ∀ a : Fin 2, win0_3.index t a * S4096x1.size a ≤ (i a).val
      ∧ (i a).val < win0_3.index t a * S4096x1.size a + S4096x1.size a := by
  show i ∈ ((View.whole main_v18).slice (win0_3.rect t)).set ↔ _
  rw [View.set_slice_whole, Rect.mem_set_unit]
  exact Iff.rfl

/-- Every row of the result array is in the block of the point its number divided by 4096 names. -/
theorem covered (i : S65536x1.Idx) :
    ∃ t : Fin cfg0.N, (cfg0.win 3).flush t = true ∧ i ∈ ((cfg0.win 3).blk t).view.set := by
  have hi0 : (i 0).val < 65536 := (i 0).isLt
  have hi1 : (i 1).val < 1 := (i 1).isLt
  refine ⟨⟨(i 0).val / 4096, by have e : cfg0.N = 16 := N_0; omega⟩, flush0_3 _, ?_⟩
  rw [mem_block]
  obtain ⟨-, -, -, -, -, -, e30, e31⟩ := block_indices ⟨(i 0).val / 4096, by have e : cfg0.N = 16 := N_0; omega⟩
  intro a
  match a with
  | ⟨0, _⟩ =>
    show win0_3.index _ (0 : Fin 2) * 4096 ≤ (i 0).val ∧ (i 0).val < win0_3.index _ (0 : Fin 2) * 4096 + 4096
    rw [e30]
    show (i 0).val / 4096 * 4096 ≤ (i 0).val ∧ (i 0).val < (i 0).val / 4096 * 4096 + 4096
    omega
  | ⟨1, _⟩ =>
    show win0_3.index _ (1 : Fin 2) * 1 ≤ (i 1).val ∧ (i 1).val < win0_3.index _ (1 : Fin 2) * 1 + 1
    rw [e31]
    omega

/-- The result array after the region: the column. -/
theorem final_column (c : Dev nD) : (dats m 0 c).arrAt 3 cfg0.N = column m c :=
  (dats m 0 c).arrAt_eq_of_cover 3 (column m c) (fun t _ => flushed_eq m c t) covered

end Cert.KernelIdeal.Head

end
-- ==== Proof.KernelRun.lean ====
/-
  The kernel program's run, read.

  After the region the program reshapes the one-column result `[65536, 1]` to the vector `[65536]`: entry `r` of the
  vector is row `r` of the column, the folded spelling at batch row `r`. With the region's frame run this gives the
  program's run: the result buffer ends at the folded spelling of the arguments, and the arguments end unchanged.
-/
import proofs.«128569_j65481071409932_2_alg».proof.Proof.Gen.KernelIdeal.Frame
import proofs.«128569_j65481071409932_2_alg».proof.Proof.Blocks
import proofs.«128569_j65481071409932_2_alg».proof.Proof.LibRank01
import Idealize.ShloMosaic.Lib.StableHlo.Run
import Idealize.ShloMosaic.Lib.Pipeline.Value

noncomputable section

namespace Cert.KernelIdeal.Head

open Cert.KernelIdeal Cert.KernelIdeal.Gen
open Idealize.ShloMosaic Idealize.ShloMosaic.TcCoe Idealize.SL.Sem Idealize.ShloMosaic.StableHlo Idealize.ShloMosaic.ValueIdx
open Idealize.ShloMosaic.Pipeline (Dat)

variable (m : (ℓ : Loc nD τ sig) → Buf (Elt Ideal) ℓ) (ρ : Dev nD → PrngReg)

/-- The folded spelling of the arguments as launched. -/
abbrev result (c : Dev nD) : S65536.Idx → EReal :=
  Cert.Readout.folded (m ((c : Thread nD τ).loc main_arg0)) (m ((c : Thread nD τ).loc main_arg1))
    (m ((c : Thread nD τ).loc main_arg2)) (m ((c : Thread nD τ).loc main_arg3)) (m ((c : Thread nD τ).loc main_arg4))
    (m ((c : Thread nD τ).loc main_arg6)) (m ((c : Thread nD τ).loc main_arg7))

/-- What the operation after the region leaves in the result buffer. -/
theorem tail_result (c : Dev nD) :
    Pipeline.afterTail₀ cfgs (dats m) 0 (V0 m) [hostOps1] c main_v19 = result m c := by
  have hw : Pipeline.withArrays spec0 c (V0 m c) (fun w => (dats m 0 c).arrAt w cfg0.N) (Proc.devRef .tc main_v18)
      = column m c :=
    (Pipeline.withArrays_arr spec0 launch0.win.arr_inj c _ _ 3).trans (final_column m c)
  unfold Pipeline.afterTail₀
  show StableHlo.after hostOps1 _ (Proc.devRef .tc main_v19) = _
  after_results
  funext i
  obtain ⟨r, rfl⟩ : ∃ r : Fin 65536, i = ix1 r := ⟨i 0, eq_ix1 i⟩
  show shapeCast S65536 (Pipeline.withArrays spec0 c (V0 m c) (fun w => (dats m 0 c).arrAt w cfg0.N)
    (Proc.devRef .tc main_v18)) shapeCasts_S65536x1_S65536 (ix1 r) = _
  rw [hw, Cert.LibRank01.shapeCast_a1_a_apply]
  rfl

/-- The run: the result buffer at the folded spelling of the arguments, the arguments unchanged. -/
theorem run : θ_run defs (onTc (τ := τ) (main (F := Ideal))) ⟨m, fun _ => 0, ρ⟩ fun r => ∀ c : Dev nD,
      r.2.mem ((c.tc : Thread nD τ).loc main_v19) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun _ h c =>
    ⟨((h c).2 main_v19 (Pipeline.mem_restRefs_of main_v19 (by decide) (by decide))).trans (tail_result m c),
      ((h c).1 0).trans (((dats m 0 c).arrAt_in 0 rfl _).trans ((A_eq m c 0).trans (V_main_arg0 m c))),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c),
      ((h c).2 main_arg6 (Pipeline.mem_restRefs_of main_arg6 (by decide) (by decide))).trans (W_main_arg6 m (dats m) c),
      ((h c).2 main_arg7 (Pipeline.mem_restRefs_of main_arg7 (by decide) (by decide))).trans (W_main_arg7 m (dats m) c)⟩)
    (run_main m ρ)

end Cert.KernelIdeal.Head

end
-- ==== Proof.lean ====
/- The proof of `Cert.Claim` (proofs.«128569_j65481071409932_2_alg».proof.Defs).

   The kernel program folds a circuit's per-wire constants into one weight row and one scalar on the host, and its kernel
   computes `∑ₖ x(r, k) · c(0, k) + bias` per batch row `r`; the reference forms every feature
   `exp(-s₂ₖ) · (((2 · x(r, k)) · exp(-sₖ)) · cos φₖ + 2 · dₖ)`, contracts with the head's weights and adds the head's bias.
   Over the real numbers the two are one number by distributivity and by splitting the sum (Proof/ReadoutLaw.lean); over the
   extended reals those laws need every entry to be a real number, which is what the precondition gives
   (Proof/FiniteInputs.lean) and what the exponential and the cosine preserve.
   The kernel program's run is read in Proof/BodyAt.lean (the body at a row of its block), Proof/Operands.lean (the weight
   row and the bias cell the host operations leave), Proof/Blocks.lean (the sixteen blocks tile the result column) and
   Proof/KernelRun.lean (the final reshape; the run). The reference's run is read at a batch row in Proof/ReferenceAt.lean.
   The three frames are the generated ones; the idealization rewrote nothing, so `preserves` is `True`. -/
import proofs.«128569_j65481071409932_2_alg».proof.Defs
import proofs.«128569_j65481071409932_2_alg».proof.Proof.Gen.Kernel
import proofs.«128569_j65481071409932_2_alg».proof.Proof.Gen.Kernel.Skeleton
import proofs.«128569_j65481071409932_2_alg».proof.Proof.Gen.Kernel.Launch
import proofs.«128569_j65481071409932_2_alg».proof.Proof.Gen.Kernel.Points
import proofs.«128569_j65481071409932_2_alg».proof.Proof.Gen.Kernel.Frame
import proofs.«128569_j65481071409932_2_alg».proof.Proof.Gen.KernelIdeal
import proofs.«128569_j65481071409932_2_alg».proof.Proof.Gen.KernelIdeal.Skeleton
import proofs.«128569_j65481071409932_2_alg».proof.Proof.Gen.KernelIdeal.Launch
import proofs.«128569_j65481071409932_2_alg».proof.Proof.Gen.KernelIdeal.Points
import proofs.«128569_j65481071409932_2_alg».proof.Proof.Gen.KernelIdeal.Frame
import proofs.«128569_j65481071409932_2_alg».proof.Proof.Gen.ReferenceIdeal
import proofs.«128569_j65481071409932_2_alg».proof.Proof.Gen.Pre_finite_inputs
import proofs.«128569_j65481071409932_2_alg».proof.Proof.Gen.ReferenceIdeal.Read
import proofs.«128569_j65481071409932_2_alg».proof.Proof.ReadoutLaw
import proofs.«128569_j65481071409932_2_alg».proof.Proof.FiniteInputs
import proofs.«128569_j65481071409932_2_alg».proof.Proof.ReferenceAt
import proofs.«128569_j65481071409932_2_alg».proof.Proof.KernelRun
import Idealize.ShloMosaic.Adequacy
import Idealize.ShloMosaic.Init

noncomputable section

namespace Cert.Proof

open Idealize.ShloMosaic Idealize.ShloMosaic.ValueIdx Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's frame is its run with the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both programs end with the folded spelling of the kernel program's arguments: the kernel program by its run, the
    reference because its feature-by-feature spelling at each batch row equals the folded one on arrays of real numbers,
    which the arguments are under the precondition. -/
theorem algebraic : Cert.algebraic_KernelIdeal_ReferenceIdeal := by
  intro m ρ m' ρ' hpre hagree
  refine ⟨fun c => Cert.KernelIdeal.Head.result m c, Cert.KernelIdeal.Head.run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6, a7⟩ := hagree c
  rw [Cert.ReferenceIdeal.Read.val_main_v26_eq, a0, a1, a2, a3, a4, a6, a7]
  obtain ⟨h0, h1, h2, h3, h4, h6, h7⟩ := Cert.Pre_finite_inputs.Head.reals_of_pre _ _ _ _ _ _ _ _ (hpre c)
  funext i
  obtain ⟨r, rfl⟩ : ∃ r : Fin 65536, i = ix1 r := ⟨i 0, eq_ix1 i⟩
  rw [Cert.ReferenceIdeal.Head.result_at]
  exact (Cert.Readout.foldedAt_eq_featuresAt _ _ _ _ _ _ _ h0 h1 h2 h3 h4 h6 h7 r).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
